-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S100000x1 : Shape := ⟨2, ![100000, 1]⟩
abbrev S1600000 : Shape := ⟨1, ![1600000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_

variable [Facts]

def fn {F : FTy → Type} [FloatOps F] (main_arg0 : FVec F S100000x32 .f32) (main_arg1 : FVec F S100000x1 .f32) (main_arg2 : FVec F S100000x1 .f32) (main_arg3 : IVec S1600000 32) (main_arg4 : IVec S1600000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  main_v13
-- ==== Kernel.lean ====
abbrev S100000x32 : Shape := ⟨2, ![100000, 32]⟩
abbrev S100000x1 : Shape := ⟨2, ![100000, 1]⟩
abbrev S1600000 : Shape := ⟨1, ![1600000]⟩
abbrev S5000x32 : Shape := ⟨2, ![5000, 32]⟩
abbrev S5000x1 : Shape := ⟨2, ![5000, 1]⟩
abbrev S_ : Shape := ⟨0, ![]⟩
abbrev S1600000x1 : Shape := ⟨2, ![1600000, 1]⟩
abbrev S1600000x32 : Shape := ⟨2, ![1600000, 32]⟩

abbrev nBuf : Space → Nat
  | .hbm => 20
  | .vmem => 12
  | .smem => 0
  | _ => 0

abbrev bufTy : (tb : Table) → Fin (tcTables nBuf tb) → BufTy
  | .hbm, ⟨0, _⟩ => ⟨S100000x32, .f32⟩
  | .hbm, ⟨1, _⟩ => ⟨S100000x1, .f32⟩
  | .hbm, ⟨2, _⟩ => ⟨S100000x1, .f32⟩
  | .hbm, ⟨3, _⟩ => ⟨S1600000, .i32⟩
  | .hbm, ⟨4, _⟩ => ⟨S1600000, .i32⟩
  | .hbm, ⟨5, _⟩ => ⟨S100000x32, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x32, .f32⟩
  | .hbm, ⟨15, _⟩ => ⟨S_, .f32⟩
  | .hbm, ⟨16, _⟩ => ⟨S100000x32, .f32⟩
  | .hbm, ⟨17, _⟩ => ⟨S1600000x1, .i32⟩
  | .hbm, ⟨18, _⟩ => ⟨S100000x32, .f32⟩
  | .hbm, ⟨19, _⟩ => ⟨S100000x32, .f32⟩
  | .local _ .vmem, ⟨0, _⟩ => ⟨S5000x32, .f32⟩
  | .local _ .vmem, ⟨1, _⟩ => ⟨S5000x32, .f32⟩
  | .local _ .vmem, ⟨2, _⟩ => ⟨S5000x1, .f32⟩
  | .local _ .vmem, ⟨3, _⟩ => ⟨S5000x1, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x1, .f32⟩
  | .local _ .vmem, ⟨9, _⟩ => ⟨S5000x1, .f32⟩
  | .local _ .vmem, ⟨10, _⟩ => ⟨S5000x32, .f32⟩
  | .local _ .vmem, ⟨11, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x32_S5000x32_0_0 : ∀ a, (![0, 0] : Fin 2 → Nat) a + S5000x32.size a ≤ S5000x32.size a
  h_S5000x32 : 0 < S5000x32.numel
  inb_S5000x1_S5000x1_0_0 : ∀ a, (![0, 0] : Fin 2 → Nat) a + S5000x1.size a ≤ S5000x1.size a
  h_S5000x1 : 0 < S5000x1.numel
  broadcasts_S5000x1_S5000x32 : S5000x1.Broadcasts S5000x32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  shapeCasts_S5000x32_S5000x32 : S5000x32.ShapeCasts S5000x32
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x32 : Shape := ⟨2, ![100000, 32]⟩
abbrev S100000x1 : Shape := ⟨2, ![100000, 1]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩

abbrev nBuf : Space → Nat
  | .hbm => 22
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S100000x1, .f32⟩
  | .hbm, ⟨2, _⟩ => ⟨S100000x1, .f32⟩
  | .hbm, ⟨3, _⟩ => ⟨S1600000, .i32⟩
  | .hbm, ⟨4, _⟩ => ⟨S1600000, .i32⟩
  | .hbm, ⟨5, _⟩ => ⟨S100000x32, .f32⟩
  | .hbm, ⟨6, _⟩ => ⟨S100000x32, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x32, .f32⟩
  | .hbm, ⟨16, _⟩ => ⟨S_, .f32⟩
  | .hbm, ⟨17, _⟩ => ⟨S100000x32, .f32⟩
  | .hbm, ⟨18, _⟩ => ⟨S1600000x1, .i32⟩
  | .hbm, ⟨19, _⟩ => ⟨S100000x32, .f32⟩
  | .hbm, ⟨20, _⟩ => ⟨S100000x32, .f32⟩
  | .hbm, ⟨21, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S100000x1_S100000x32_0_1 : S100000x1.BroadcastsInDim S100000x32 (![0, 1] : Fin 2 → Fin S100000x32.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.RowScale.lean ====
/-
  The mathematics both programs compute, stated once, over any float instance.

  A node-feature array `x : [100000, 32]` is scaled ROW BY ROW by a column `s : [100000, 1]`:
  entry `(r, k)` of the result is `x (r, k) · s (r, 0)` (`scaleRows`).  Between two such scalings the
  features are AGGREGATED along the edges of a graph: row `src e` (a negative index counted from the
  end) is read for every edge `e`, and the rows read are summed into row `dst e` of a zero array
  (`aggregate`).  The layer is `scaleRows (aggregate (scaleRows x outDeg) src dst) inDeg`.

  The two ways a row scaling is spelt — a host multiply by the column broadcast along the rows, and a
  block's multiply by the block of the column broadcast along its rows — are each read at an index
  here (`mulf_broadcastInDim`, `mulf_broadcastTo_apply`).
-/
import Idealize.ShloMosaic.PureOps
import Idealize.ShloMosaic.Lib.Pipeline.Value

noncomputable section

namespace Cert.RowScale

open Idealize.ShloMosaic

variable {F : FTy → Type} [FloatOps F]

/-! ## Shapes -/

abbrev Nodes : Shape := ⟨2, ![100000, 32]⟩
abbrev NodeCol : Shape := ⟨2, ![100000, 1]⟩
abbrev Block : Shape := ⟨2, ![5000, 32]⟩
abbrev BlockCol : Shape := ⟨2, ![5000, 1]⟩
abbrev Edges : Shape := ⟨1, ![1600000]⟩
abbrev EdgeCol : Shape := ⟨2, ![1600000, 1]⟩
abbrev Msgs : Shape := ⟨2, ![1600000, 32]⟩
abbrev Unit0 : Shape := ⟨0, ![]⟩

/-! ## Scaling the rows -/

/-- The column entry that scales the row of `i`: `(r, k) ↦ (r, 0)`. -/
def rowOf (i : Nodes.Idx) : NodeCol.Idx := fun a => match a with
  | ⟨0, _⟩ => ⟨(i 0).val, (i 0).isLt⟩
  | ⟨1, _⟩ => ⟨0, Nat.one_pos⟩

/-- The same inside a block of 5000 rows. -/
def blockRowOf (j : Block.Idx) : BlockCol.Idx := fun a => match a with
  | ⟨0, _⟩ => ⟨(j 0).val, (j 0).isLt⟩
  | ⟨1, _⟩ => ⟨0, Nat.one_pos⟩

/-- Every row of `x` multiplied by its entry of the column `s`. -/
def scaleRows (x : Nodes.Idx → F .f32) (s : NodeCol.Idx → F .f32) : Nodes.Idx → F .f32 :=
  fun i => FloatOps.mulf (x i) (s (rowOf i))

/-- The host's spelling: the product with the column broadcast along the rows. -/
theorem mulf_broadcastInDim (h : NodeCol.BroadcastsInDim Nodes (![0, 1] : Fin 2 → Fin Nodes.rank))
    (x : FVec F Nodes .f32) (s : FVec F NodeCol .f32) :
    mulf x (broadcastInDim Nodes ![0, 1] h s) = scaleRows x s := by
  funext i
  show FloatOps.mulf (x i) (broadcastInDim Nodes ![0, 1] h s i) = FloatOps.mulf (x i) (s (rowOf i))
  rw [broadcastInDim_apply _ h s i (rowOf i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])]

/-- A block's spelling, at an index of the block: the block of `x` times the block of the column
    broadcast along the block's rows. -/
theorem mulf_broadcastTo_apply (h : BlockCol.Broadcasts Block) (x : FVec F Block .f32) (s : FVec F BlockCol .f32)
    (j : Block.Idx) :
    mulf x (broadcastTo Block s h) j = FloatOps.mulf (x j) (s (blockRowOf j)) := by
  show FloatOps.mulf (x j) (broadcastTo Block s h j) = _
  rw [broadcastTo_apply s h j (blockRowOf j) (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])]

/-! ## Aggregating along the edges -/

theorem gatherWF : GatherDims.WF Nodes EdgeCol Msgs [1] [0] [] [0] [] 1 ![1, 32] := by decide
theorem scatterWF : ScatterDims.WF Nodes EdgeCol Msgs [1] [0] [0] 1 := by decide
theorem bcastEdges : Unit0.BroadcastsInDim Edges (![] : Fin 0 → Fin Edges.rank) := by decide
theorem bcastEdgeCol : Edges.BroadcastsInDim EdgeCol (![0] : Fin 1 → Fin EdgeCol.rank) := by decide
theorem bcastNodes : Unit0.BroadcastsInDim Nodes (![] : Fin 0 → Fin Nodes.rank) := by decide

/-- Reading whole rows of the feature array at one row index per edge. -/
def rowGather : GatherDims Nodes EdgeCol Msgs where
  offsetDims := [1]
  collapsedSliceDims := [0]
  operandBatchingDims := []
  startIndicesBatchingDims := []
  startIndexMap := [0]
  indexVectorDim := 1
  sliceSizes := ![1, 32]
  wf := gatherWF

/-- Adding whole rows into the feature array at one row index per edge. -/
def rowScatter : ScatterDims Nodes EdgeCol Msgs where
  updateWindowDims := [1]
  insertedWindowDims := [0]
  scatterDimsToOperandDims := [0]
  indexVectorDim := 1
  wf := scatterWF

/-- The sum over the edges: row `src e` of `h` (a negative `src e` counted from the end) added into row
    `dst e` of a zero array, for every edge `e`. -/
def aggregate (h : FVec F Nodes .f32) (src dst : IVec Edges 32) : FVec F Nodes .f32 :=
  Host.scatterAdd rowScatter
    (broadcastInDim Nodes ![] bcastNodes (constant Unit0 .f32 0x00000000#32))
    (broadcastInDim EdgeCol ![0] bcastEdgeCol dst)
    (Host.gather rowGather h
      (broadcastInDim EdgeCol ![0] bcastEdgeCol
        (select (cmpi .slt src (broadcastInDim Edges ![] bcastEdges (constantI Unit0 32 0#32)))
          (addi src (broadcastInDim Edges ![] bcastEdges (constantI Unit0 32 100000#32))) src)))

/-- The layer: scale by the out-degree column, aggregate along the edges, scale by the in-degree column. -/
def layer (x : FVec F Nodes .f32) (outDeg inDeg : FVec F NodeCol .f32) (src dst : IVec Edges 32) : FVec F Nodes .f32 :=
  scaleRows (aggregate (scaleRows x outDeg) src dst) inDeg

end Cert.RowScale

end
-- ==== Proof.FirstScale.lean ====
/-
  The first scaling pass of the kernel, read as a value.

  The pass walks the 100000 rows in 20 blocks of 5000.  At block `t` it loads rows `5000 t … 5000 t + 4999` of
  the features and of the column, multiplies every row by its column entry and writes the block back to the same
  rows of the output.  Every output row lies in exactly one block, so after the pass the output array is
  `scaleRows` of the two arrays as the pass found them — whatever those were (`V` is a parameter).
-/
import proofs.«120722_j91250875171357_2_alg».proof.Proof.Gen.KernelIdeal.Frame
import proofs.«120722_j91250875171357_2_alg».proof.Proof.RowScale
import Idealize.ShloMosaic.Lib.Pipeline.Value

noncomputable section

namespace Cert.KernelIdeal.FirstScale

open Cert.KernelIdeal Cert.KernelIdeal.Gen Cert.RowScale Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- The body's stored value at an index of the block: the feature entry times the row's column entry. -/
theorem payload_apply (x0 : Vec F S5000x32 .f32) (x1 : Vec F S5000x1 .f32) (j : S5000x32.Idx) :
    k0_pay1 x0 x1 j = FloatOps.mulf (x0 j) (x1 (blockRowOf j)) := by
  unfold k0_pay1
  exact mulf_broadcastTo_apply broadcasts_S5000x1_S5000x32 x0 x1 j

/-- The three windows move together: at point `t` each is on row block `t`, column block 0. -/
theorem index_facts : ∀ t : Fin cfg0.N,
    win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (0 : Fin 2) ≤ 19
    ∧ win0_2.index t (1 : Fin 2) = 0 :=
  (by decide +kernel : ∀ t : Fin grid0.N, _)

/-- Every row block is some point's. -/
theorem index_onto : ∀ q : Fin 20, ∃ t : Fin cfg0.N, win0_2.index t = ![q.val, 0] :=
  (by decide +kernel : ∀ q : Fin 20, ∃ t : Fin grid0.N, win0_2.index t = ![q.val, 0])

/-- What point `t` writes back is block `t` of the row-scaled array. -/
theorem flushed_eq (c : Dev nD) (t : Fin cfg0.N) :
    (dat0 V c).flushed 2 t
      = ((cfg0.win 2).blk t).view.read (Elt F) (scaleRows (V c main_arg0) (V c main_arg1)) := by
  show (cfg0.win 2).cut (grid0.coords t) ((dat0 V c).after 2 t) = _
  rw [after0_2]
  unfold out0_2
  rw [View.canon_unit_zero zero_offsets]
  simp only [View.ld_unit_zero (S := S5000x32) zero_offsets, View.ld_unit_zero (S := S5000x1) zero_offsets]
  obtain ⟨e0, e1, e2, e3, e4, e5⟩ := index_facts t
  funext j
  show k0_pay1 (iblk0 V c 0 t) (iblk0 V c 1 t) j = scaleRows (V c main_arg0) (V c main_arg1) (((cfg0.win 2).blk t).view.emb j)
  rw [payload_apply]
  show FloatOps.mulf (V c main_arg0 (((cfg0.win 0).blk t).view.emb j)) (V c main_arg1 (((cfg0.win 1).blk t).view.emb (blockRowOf j)))
    = FloatOps.mulf (V c main_arg0 (((cfg0.win 2).blk t).view.emb j)) (V c main_arg1 (rowOf (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 32 + 1 * (j 1).val = win0_2.index t (1 : Fin 2) * 32 + 1 * (j 1).val; omega
  have h1 : ((cfg0.win 1).blk t).view.emb (blockRowOf j) = rowOf (((cfg0.win 2).blk t).view.emb j) := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 1 + 1 * 0 = 0; omega
  rw [h0, h1]

/-- An index of the array is in point `t`'s block iff each coordinate is in the block's range on its axis. -/
theorem mem_block (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v0).slice (win0_2.rect t)).set ↔ _
  rw [View.set_slice_whole, Rect.mem_set_unit]
  exact Iff.rfl

/-- Row `r` lies in block `r / 5000`: the blocks cover the array. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 32 ≤ (i 1).val ∧ (i 1).val < win0_2.index t (1 : Fin 2) * 32 + 32; omega

/-- After the pass its output array is the row-scaled array of what it found. -/
theorem final (c : Dev nD) :
    (dat0 V c).arrAt 2 cfg0.N = scaleRows (V c main_arg0) (V c main_arg1) :=
  (dat0 V c).arrAt_eq_of_cover 2 _ (fun t _ => flushed_eq V c t) cover

end Cert.KernelIdeal.FirstScale

end
-- ==== Proof.SecondScale.lean ====
/-
  The second scaling pass of the kernel, read as a value.

  It is the first pass again on other arrays: 20 blocks of 5000 rows, block `t` of the aggregated features times
  block `t` of the in-degree column, written to block `t` of the result (the body first re-reads its feature block
  under the shape it already has, which changes nothing).  After the pass the result array is `scaleRows` of the two
  arrays as the pass found them (`V` is a parameter).
-/
import proofs.«120722_j91250875171357_2_alg».proof.Proof.Gen.KernelIdeal.Frame
import proofs.«120722_j91250875171357_2_alg».proof.Proof.RowScale
import Idealize.ShloMosaic.Lib.Pipeline.Value

noncomputable section

namespace Cert.KernelIdeal.SecondScale

open Cert.KernelIdeal Cert.KernelIdeal.Gen Cert.RowScale Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- The body's stored value at an index of the block: the feature entry (a cast to its own shape is the identity)
    times the row's column entry. -/
theorem payload_apply (x0 : Vec F S5000x32 .f32) (x1 : Vec F S5000x1 .f32) (j : S5000x32.Idx) :
    k1_pay1 x0 x1 j = FloatOps.mulf (x0 j) (x1 (blockRowOf j)) := by
  unfold k1_pay1
  rw [shapeCast_self]
  exact mulf_broadcastTo_apply broadcasts_S5000x1_S5000x32 x0 x1 j

/-- The three windows move together: at point `t` each is on row block `t`, column block 0. -/
theorem index_facts : ∀ t : Fin cfg1.N,
    win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = 0
    ∧ win1_2.index t (0 : Fin 2) ≤ 19
    ∧ win1_2.index t (1 : Fin 2) = 0 :=
  (by decide +kernel : ∀ t : Fin grid1.N, _)

/-- Every row block is some point's. -/
theorem index_onto : ∀ q : Fin 20, ∃ t : Fin cfg1.N, win1_2.index t = ![q.val, 0] :=
  (by decide +kernel : ∀ q : Fin 20, ∃ t : Fin grid1.N, win1_2.index t = ![q.val, 0])

/-- What point `t` writes back is block `t` of the row-scaled array. -/
theorem flushed_eq (c : Dev nD) (t : Fin cfg1.N) :
    (dat1 V c).flushed 2 t
      = ((cfg1.win 2).blk t).view.read (Elt F) (scaleRows (V c main_v10) (V c main_arg2)) := by
  show (cfg1.win 2).cut (grid1.coords t) ((dat1 V c).after 2 t) = _
  rw [after1_2]
  unfold out1_2
  rw [View.canon_unit_zero zero_offsets]
  simp only [View.ld_unit_zero (S := S5000x32) zero_offsets, View.ld_unit_zero (S := S5000x1) zero_offsets]
  obtain ⟨e0, e1, e2, e3, e4, e5⟩ := index_facts t
  funext j
  show k1_pay1 (iblk1 V c 0 t) (iblk1 V c 1 t) j = scaleRows (V c main_v10) (V c main_arg2) (((cfg1.win 2).blk t).view.emb j)
  rw [payload_apply]
  show FloatOps.mulf (V c main_v10 (((cfg1.win 0).blk t).view.emb j)) (V c main_arg2 (((cfg1.win 1).blk t).view.emb (blockRowOf j)))
    = FloatOps.mulf (V c main_v10 (((cfg1.win 2).blk t).view.emb j)) (V c main_arg2 (rowOf (((cfg1.win 2).blk t).view.emb j)))
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 32 + 1 * (j 1).val = win1_2.index t (1 : Fin 2) * 32 + 1 * (j 1).val; omega
  have h1 : ((cfg1.win 1).blk t).view.emb (blockRowOf j) = rowOf (((cfg1.win 2).blk t).view.emb j) := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 1 + 1 * 0 = 0; omega
  rw [h0, h1]

/-- An index of the array is in point `t`'s block iff each coordinate is in the block's range on its axis. -/
theorem mem_block (t : Fin cfg1.N) (i : S100000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v11).slice (win1_2.rect t)).set ↔ _
  rw [View.set_slice_whole, Rect.mem_set_unit]
  exact Iff.rfl

/-- Row `r` lies in block `r / 5000`: the blocks cover the array. -/
theorem cover (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 32 ≤ (i 1).val ∧ (i 1).val < win1_2.index t (1 : Fin 2) * 32 + 32; omega

/-- After the pass its output array is the row-scaled array of what it found. -/
theorem final (c : Dev nD) :
    (dat1 V c).arrAt 2 cfg1.N = scaleRows (V c main_v10) (V c main_arg2) :=
  (dat1 V c).arrAt_eq_of_cover 2 _ (fun t _ => flushed_eq V c t) cover

end Cert.KernelIdeal.SecondScale

end
-- ==== Proof.EdgeSum.lean ====
/-
  What the second pass finds: the stretch of host operations between the two passes, read as a value.

  The stretch reads the first pass's output and the two edge-index arguments, writes the aggregated features, and
  writes neither an argument nor the first pass's output.  So the second pass finds, at its feature window, the
  edge sum (`aggregate`) of the first pass's output along the launched edge indices, and at its column window the
  launched in-degree column.
-/
import proofs.«120722_j91250875171357_2_alg».proof.Proof.Gen.KernelIdeal.Frame
import proofs.«120722_j91250875171357_2_alg».proof.Proof.RowScale
import Idealize.ShloMosaic.Lib.StableHlo.Run

noncomputable section

namespace Cert.KernelIdeal.EdgeSum

open Cert.KernelIdeal Cert.KernelIdeal.Gen Cert.RowScale
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The stretch's result, from any contents `W` before it: the edge sum of the first pass's output buffer along
    the two index buffers. -/
theorem after_stretch (W : Valuation τ sig (Elt F)) :
    StableHlo.after hostOps1 W (Proc.devRef .tc main_v10)
      = aggregate (W (Proc.devRef .tc main_v0)) (W (Proc.devRef .tc main_arg3)) (W (Proc.devRef .tc main_arg4)) := by
  dsimp only [hostOps1]
  after_results
  rfl

/-- The second pass's feature window finds the edge sum of the first pass's output along the launched indices. -/
theorem entry_features (c : Dev nD) :
    V2 m ρ c main_v10
      = aggregate ((dat0 (V0 m ρ) c).arrAt 2 cfg0.N) (m ((c.tc : Thread nD τ).loc main_arg3)) (m ((c.tc : Thread nD τ).loc main_arg4)) := by
  show StableHlo.after hostOps1 (W1 m ρ c) (Proc.devRef .tc main_v10) = _
  rw [after_stretch, W1_arr m ρ c 2, W1_of_ne m ρ c main_arg3 (by decide), W1_of_ne m ρ c main_arg4 (by decide)]

/-- Its column window finds the launched in-degree column. -/
theorem entry_column (c : Dev nD) : V2 m ρ c main_arg2 = m ((c.tc : Thread nD τ).loc main_arg2) :=
  ((W3_arr m ρ c 1).trans (((dat1 (V2 m ρ) c).arrAt_in 1 rfl _).trans (A_eq1 (V2 m ρ) c 1))).symm.trans (W3_main_arg2 m ρ c)

end Cert.KernelIdeal.EdgeSum

end
-- ==== Proof.ResultRun.lean ====
/-
  The kernel's run with its RESULT array named.

  The program is three segments: the first scaling pass, the stretch of host operations that aggregates along the
  edges, the second scaling pass.  Every weakly fair execution runs them in this order and ends with every unscoped
  buffer at the contents the last boundary assigns it; read at the result buffer this names what the program
  returns, and read at the five argument buffers it says they are as launched.
-/
import proofs.«120722_j91250875171357_2_alg».proof.Proof.Gen.KernelIdeal.Frame

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates without a fault; its result buffer then holds
    what the second pass's write-backs leave of it, and the arguments are unchanged. -/
theorem run : θ_run defs (onTc (τ := τ) (main (F := F))) ⟨m, fun _ => 0, ρ⟩ (fun r => ∀ c : Dev nD,
      r.2.mem ((c.tc : Thread nD τ).loc main_v11) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v11 (by decide))).trans (W3_arr m ρ c 2),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.ResultRun

end
-- ==== Proof.KernelLayer.lean ====
/-
  The kernel's result as one function of its arguments.

  The second pass leaves the row scaling of what it found; it found the edge sum of the first pass's output and the
  launched in-degree column; the first pass left the row scaling of the launched features by the launched out-degree
  column.  Composed: the result array is `layer` of the five launched arguments.
-/
import proofs.«120722_j91250875171357_2_alg».proof.Proof.FirstScale
import proofs.«120722_j91250875171357_2_alg».proof.Proof.SecondScale
import proofs.«120722_j91250875171357_2_alg».proof.Proof.EdgeSum
import proofs.«120722_j91250875171357_2_alg».proof.Proof.ResultRun

noncomputable section

namespace Cert.KernelIdeal.Layer

open Cert.KernelIdeal Cert.KernelIdeal.Gen Cert.RowScale
open Idealize.ShloMosaic Idealize.ShloMosaic.TcCoe Idealize.SL.Sem

variable {F : FTy → Type} [FloatOps F]
variable (m : (ℓ : Loc nD τ sig) → Buf (Elt F) ℓ) (ρ : Dev nD → PrngReg)

/-- What the second pass's write-backs leave of the result array: the layer of the launched arguments. -/
theorem result_eq (c : Dev nD) :
    (dat1 (V2 m ρ) c).arrAt 2 cfg1.N
      = layer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  rw [SecondScale.final (V2 m ρ) c, EdgeSum.entry_features m ρ c, EdgeSum.entry_column m ρ c, FirstScale.final (V0 m ρ) c]
  rfl

/-- The kernel's run: it terminates without a fault with the layer of its arguments in the result buffer and the
    arguments unchanged. -/
theorem run : θ_run defs (onTc (τ := τ) (main (F := F))) ⟨m, fun _ => 0, ρ⟩ (fun r => ∀ c : Dev nD,
      r.2.mem ((c.tc : Thread nD τ).loc main_v11)
        = layer (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (result_eq m ρ c), (h c).2⟩) (ResultRun.run m ρ)

end Cert.KernelIdeal.Layer

end
-- ==== Proof.ReferenceLayer.lean ====
/-
  The reference's result as the same function of its arguments.

  The reference multiplies the features by the out-degree column broadcast along the rows, aggregates along the edges
  with the very host operations the kernel's program uses, and multiplies by the in-degree column broadcast along the
  rows.  Each of the two products is a row scaling (`mulf_broadcastInDim`), so the composed term is `layer`.
-/
import proofs.«120722_j91250875171357_2_alg».proof.Proof.Gen.ReferenceIdeal.Run
import proofs.«120722_j91250875171357_2_alg».proof.Proof.RowScale

noncomputable section

namespace Cert.ReferenceIdeal.Layer

open Cert.ReferenceIdeal Cert.ReferenceIdeal.Gen Cert.RowScale
open Idealize.ShloMosaic Idealize.ShloMosaic.TcCoe Idealize.SL.Sem

variable {F : FTy → Type} [FloatOps F]

/-- The reference run's result term is the layer of the arguments. -/
theorem result_eq (x0 : FVec F S100000x32 .f32) (x1 x2 : FVec F S100000x1 .f32) (x3 x4 : IVec S1600000 32) :
    mulf (Host.scatterAdd scatter_S100000x32_S1600000x1_S1600000x32_1_0_0_1 (broadcastInDim S100000x32 ![] bcast_S_S100000x32 (constant S_ .f32 0x00000000#32)) (broadcastInDim S1600000x1 ![0] bcast_S1600000_S1600000x1_0 x4) (Host.gather gather_S100000x32_S1600000x1_S1600000x32_1_0_n_n_0_1_132 (mulf x0 (broadcastInDim S100000x32 ![0, 1] bcast_S100000x1_S100000x32_0_1 x1)) (broadcastInDim S1600000x1 ![0] bcast_S1600000_S1600000x1_0 (select (cmpi .slt x3 (broadcastInDim S1600000 ![] bcast_S_S1600000 (constantI S_ 32 0#32))) (addi x3 (broadcastInDim S1600000 ![] bcast_S_S1600000 (constantI S_ 32 100000#32))) x3)))) (broadcastInDim S100000x32 ![0, 1] bcast_S100000x1_S100000x32_0_1 x2)
      = layer x0 x1 x2 x3 x4 := by
  rw [mulf_broadcastInDim bcast_S100000x1_S100000x32_0_1, mulf_broadcastInDim bcast_S100000x1_S100000x32_0_1]
  rfl

end Cert.ReferenceIdeal.Layer

end
-- ==== Proof.lean ====
/-
  The certificate of a graph-convolution layer: a Pallas kernel program against its jnp reference.

  Both programs compute, from node features `x : [100000, 32]`, an out-degree column and an in-degree column
  `[100000, 1]` and two edge-index arrays `src, dst : [1600000]`,

      layer x outDeg inDeg src dst = scaleRows (aggregate (scaleRows x outDeg) src dst) inDeg

  (Proof/RowScale.lean): scale every row by its out-degree entry, sum row `src e` into row `dst e` over the edges `e`,
  scale every row by its in-degree entry.  The kernel program does the two scalings as pipelined passes over 20
  blocks of 5000 rows and the edge sum by host operations between them; the reference does all three on the host,
  each scaling a product with the column broadcast along the rows.  Nothing but the definition of a row scaling
  joins the two sides — the edge sum is the same operations on equal inputs, never opened — so the equality holds
  for every float instance and the precondition is not used.

  The kernel's side: each pass leaves the row scaling of what it found (Proof/FirstScale.lean,
  Proof/SecondScale.lean: block `t` written back is block `t` of the scaled array, and the blocks cover the array);
  the second pass finds the edge sum of the first pass's output (Proof/EdgeSum.lean); the run names the result
  buffer (Proof/ResultRun.lean); composed in Proof/KernelLayer.lean.  The reference's side: Proof/ReferenceLayer.lean
  over its run read back.  The idealization rewrote no operation, so `preserves` is trivial; the frames are the
  generated ones, and the reference's frame is its run with the result dropped.
-/
import proofs.«120722_j91250875171357_2_alg».proof.Defs
import proofs.«120722_j91250875171357_2_alg».proof.Proof.Gen.Kernel
import proofs.«120722_j91250875171357_2_alg».proof.Proof.Gen.Kernel.Frame
import proofs.«120722_j91250875171357_2_alg».proof.Proof.Gen.KernelIdeal
import proofs.«120722_j91250875171357_2_alg».proof.Proof.Gen.KernelIdeal.Frame
import proofs.«120722_j91250875171357_2_alg».proof.Proof.Gen.ReferenceIdeal
import proofs.«120722_j91250875171357_2_alg».proof.Proof.Gen.ReferenceIdeal.Run
import proofs.«120722_j91250875171357_2_alg».proof.Proof.Gen.Pre_finite_inputs
import proofs.«120722_j91250875171357_2_alg».proof.Proof.KernelLayer
import proofs.«120722_j91250875171357_2_alg».proof.Proof.ReferenceLayer

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization is the program's own text read at the ideal instance: nothing to preserve. -/
theorem preserves : Cert.preserves_Kernel_KernelIdeal := trivial

/-- From memories agreeing on the arguments both programs end with `layer` of the arguments in their result
    buffers: the kernel's by its run (Proof/KernelLayer.lean), the reference's by its run read back and
    Proof/ReferenceLayer.lean, the agreement of the arguments rewritten. -/
theorem algebraic : Cert.algebraic_KernelIdeal_ReferenceIdeal := by
  intro m ρ m' ρ' _ hagree
  refine ⟨_, Cert.KernelIdeal.Layer.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.ReferenceIdeal.Layer.result_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
